-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S800000 32) (main_arg2 : IVec S800000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S5000x64 : Shape := ⟨2, ![5000, 64]⟩

abbrev nBuf : Space → Nat
  | .hbm => 63
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S1x64, .f32⟩
  | .hbm, ⟨35, _⟩ => ⟨S50000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S_, .f32⟩
  | .hbm, ⟨46, _⟩ => ⟨S50000x64, .f32⟩
  | .hbm, ⟨47, _⟩ => ⟨S800000x1, .i32⟩
  | .hbm, ⟨48, _⟩ => ⟨S50000x64, .f32⟩
  | .hbm, ⟨49, _⟩ => ⟨S_, .f32⟩
  | .hbm, ⟨50, _⟩ => ⟨S800000, .f32⟩
  | .hbm, ⟨51, _⟩ => ⟨S_, .f32⟩
  | .hbm, ⟨52, _⟩ => ⟨S50000, .f32⟩
  | .hbm, ⟨53, _⟩ => ⟨S800000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .f32⟩
  | .hbm, ⟨58, _⟩ => ⟨S50000x1, .f32⟩
  | .hbm, ⟨59, _⟩ => ⟨S50000x64, .f32⟩
  | .hbm, ⟨60, _⟩ => ⟨S50000x64, .f32⟩
  | .hbm, ⟨61, _⟩ => ⟨S1x64, .f32⟩
  | .hbm, ⟨62, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The network both programs compute, written once as whole-array operations.

  A layer takes node features h (50000 rows of 64), the edge lists src and dst (800000 edges), two 64×64 weight
  matrices and a bias of 64 entries.  Row v of the neighbour mean is the sum of h[src e] over the edges e with
  dst e = v, divided by max(number of such edges, 1).  The layer's output is
      h · W_self + mean · W_neigh + b          (the bias added to every row),
  the first layer is followed by max(·, 0), and the second layer's features are the first layer's output.
-/
import proofs.«166470_j54640573940274_1_alg».proof.Proof.Gen.ReferenceIdeal
import Idealize.ShloMosaic.PureOps.Ideal

noncomputable section

namespace Cert.Sage

open Idealize.ShloMosaic Cert.ReferenceIdeal Cert.ReferenceIdeal.Gen

variable {F : FTy → Type} [FloatOps F]

/-- Node features: 50000 rows of 64 floats. -/
abbrev Feat (F : FTy → Type) := (⟨S50000x64, .f32⟩ : BufTy).Contents (Elt F)
/-- An edge list: 800000 node numbers. -/
abbrev Edges (F : FTy → Type) := (⟨S800000, .i32⟩ : BufTy).Contents (Elt F)
/-- A 64×64 weight matrix. -/
abbrev Weight (F : FTy → Type) := (⟨S64x64, .f32⟩ : BufTy).Contents (Elt F)
/-- A bias vector of 64 entries. -/
abbrev Bias (F : FTy → Type) := (⟨S64, .f32⟩ : BufTy).Contents (Elt F)
/-- A bias laid out as one row of 64 entries. -/
abbrev BiasRow (F : FTy → Type) := (⟨S1x64, .f32⟩ : BufTy).Contents (Elt F)

/-- The mean of the in-neighbours' features: gather the rows h[src e] (a negative src counted from the end), add row e
    into row dst e of a zero array, and divide row v by max(deg v, 1), where deg v is the number of edges into v (ones
    added into a zero vector at dst). -/
def nbrMean (h : Feat F) (src dst : Edges F) : Feat F :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst)
      (Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- h · W_self + mean · W_neigh + the bias row repeated down the 50000 rows. -/
def affineRow (h mean : Feat F) (Ws Wn : Weight F) (brow : BiasRow F) : Feat F :=
  addf (addf (Host.dotGeneral dot_S50000x64_S64x64_S50000x64_1_0_0_1_n_n none h Ws)
      (Host.dotGeneral dot_S50000x64_S64x64_S50000x64_1_0_0_1_n_n none mean Wn))
    (broadcastInDim S50000x64 ![0, 1] bcast_S1x64_S50000x64_0_1 brow)

/-- The same with the bias given as a vector of 64 entries. -/
def affine (h mean : Feat F) (Ws Wn : Weight F) (b : Bias F) : Feat F :=
  affineRow h mean Ws Wn (broadcastInDim S1x64 ![1] bcast_S64_S1x64_1 b)

/-- max(·, 0), entry by entry. -/
def relu (x : Feat F) : Feat F :=
  maximumf x (broadcastInDim S50000x64 ![] bcast_S_S50000x64 (constant S_ .f32 0x00000000#32))

/-- The first layer's output: the affine layer over x and its neighbour mean, then max(·, 0). -/
def hidden (x : Feat F) (src dst : Edges F) (W1s W1n : Weight F) (b1 : Bias F) : Feat F :=
  relu (affine x (nbrMean x src dst) W1s W1n b1)

/-- The two layers. -/
def net (x : Feat F) (src dst : Edges F) (W1s W1n : Weight F) (b1 : Bias F) (W2s W2n : Weight F) (b2 : Bias F) : Feat F :=
  affine (hidden x src dst W1s W1n b1) (nbrMean (hidden x src dst W1s W1n b1) src dst) W2s W2n b2

end Cert.Sage

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.BlockMath.lean ====
/-
  One entry of the affine layer, and one entry of what a launch's body stores.

  Entry (r, j) of h · W_self + mean · W_neigh + b is
      Σ_k h(r,k) · W_self(k,j) + Σ_k mean(r,k) · W_neigh(k,j) + b(j):
  it reads row r of h and of mean, column j of the two weight matrices and entry j of the bias.  A launch's body works on
  a block of 5000 rows of h and of mean; its products accumulate into zero, its changes of float format are the identity
  on the extended reals, and its stored block's entry (p, j) is the same expression over the block's row p.  So when
  the block's row p is the array's row r, the stored entry (p, j) is the layer's entry (r, j).
-/
import proofs.«166470_j54640573940274_1_alg».proof.Proof.Spec
import proofs.«166470_j54640573940274_1_alg».proof.Proof.LibRowOps
import proofs.«166470_j54640573940274_1_alg».proof.Proof.Gen.KernelIdeal.Skeleton
import Idealize.ShloMosaic.Lib.KernelVsHost
import Idealize.ShloMosaic.Lib.ValueLayout

noncomputable section

open scoped BigOperators

namespace Cert.Sage

open Idealize.ShloMosaic Idealize.ShloMosaic.ValueIdx

/-- The layer's value at (r, j) as two sums over the 64 features and the bias entry. -/
theorem affineRow_apply (h mean : Feat Ideal) (Ws Wn : Weight Ideal) (brow : BiasRow Ideal) (r : Fin 50000) (j : Fin 64) :
    affineRow h mean Ws Wn brow (ix2 r j)
      = (∑ k : Fin 64, h (ix2 r k) * Ws (ix2 k j) + ∑ k : Fin 64, mean (ix2 r k) * Wn (ix2 k j)) + brow (ix2 (0 : Fin 1) j) := by
  unfold affineRow
  rw [Cert.RowLib.dotDims_eq_plain Cert.ReferenceIdeal.dot_S50000x64_S64x64_S50000x64_1_0_0_1_n_n rfl rfl rfl rfl rfl rfl]
  show ((Host.dotGeneral (F := Ideal) (DotDims.plain 50000 64 64) none h Ws (ix2 r j) : EReal)
        + (Host.dotGeneral (F := Ideal) (DotDims.plain 50000 64 64) none mean Wn (ix2 r j) : EReal))
      + (broadcastInDim Cert.ReferenceIdeal.S50000x64 ![0, 1] Cert.ReferenceIdeal.Gen.bcast_S1x64_S50000x64_0_1 brow (ix2 r j) : EReal) = _
  rw [StackMember.dotGeneral_plain_apply, StackMember.dotGeneral_plain_apply,
    broadcastInDim_oneRow_apply Cert.ReferenceIdeal.Gen.bcast_S1x64_S50000x64_0_1 brow r j]

/-- max(·, 0) at an entry. -/
theorem relu_apply (x : Feat Ideal) (i : Cert.ReferenceIdeal.S50000x64.Idx) :
    relu x i = max (x i) (Ideal.ofBits .f32 0x00000000#32) := rfl

end Cert.Sage

namespace Cert.KernelIdeal.Gen

open Idealize.ShloMosaic Idealize.ShloMosaic.ValueIdx Cert.Sage

/-- The common part of both bodies at (p, j): the two products accumulated into zero, added, plus the bias row. -/
theorem body_sum_apply (x0 x1 : FVec Ideal S5000x64 .f32) (x2 x3 : FVec Ideal S64x64 .f32) (x4 : FVec Ideal S1x64 .f32)
    (p : Fin 5000) (j : Fin 64) :
    addf (addf (matmul dot_S5000x64_S64x64_S5000x64_1_0_0_1_n_n none (truncf .bf16 x0 bitsLt_bf16_f32) (truncf .bf16 x2 bitsLt_bf16_f32) (constant S5000x64 .f32 0x00000000#32))
        (matmul dot_S5000x64_S64x64_S5000x64_1_0_0_1_n_n none (truncf .bf16 x1 bitsLt_bf16_f32) (truncf .bf16 x3 bitsLt_bf16_f32) (constant S5000x64 .f32 0x00000000#32)))
      (broadcastTo S5000x64 x4 broadcasts_S1x64_S5000x64) (ix2 p j)
      = (∑ k : Fin 64, x0 (ix2 p k) * x2 (ix2 k j) + ∑ k : Fin 64, x1 (ix2 p k) * x3 (ix2 k j)) + x4 (ix2 (0 : Fin 1) j) := by
  rw [Cert.RowLib.dotDims_eq_plain dot_S5000x64_S64x64_S5000x64_1_0_0_1_n_n rfl rfl rfl rfl rfl rfl]
  show ((matmul (F := Ideal) (DotDims.plain 5000 64 64) none (truncf .bf16 x0 bitsLt_bf16_f32) (truncf .bf16 x2 bitsLt_bf16_f32) (constant ⟨2, ![5000, 64]⟩ .f32 0x00000000#32) (ix2 p j) : EReal)
      + (matmul (F := Ideal) (DotDims.plain 5000 64 64) none (truncf .bf16 x1 bitsLt_bf16_f32) (truncf .bf16 x3 bitsLt_bf16_f32) (constant ⟨2, ![5000, 64]⟩ .f32 0x00000000#32) (ix2 p j) : EReal))
      + (broadcastTo S5000x64 x4 broadcasts_S1x64_S5000x64 (ix2 p j) : EReal) = _
  rw [Cert.RowLib.matmul_plain_zero_ix2, Cert.RowLib.matmul_plain_zero_ix2, broadcastTo_1b_ab_apply x4 broadcasts_S1x64_S5000x64 p j]
  rfl

/-- What the first launch's body stores at (p, j) is max(·, 0) of the layer's entry (r, j), when the blocks' row p is the
    arrays' row r, the weights are the weight arrays and the bias row is the bias row. -/
theorem pay0_apply (H M : Feat Ideal) (Ws Wn : Weight Ideal) (brow : BiasRow Ideal)
    (x0 x1 : Vec Ideal S5000x64 .f32) (x2 x3 : Vec Ideal S64x64 .f32) (x4 : Vec Ideal S1x64 .f32)
    (p : Fin 5000) (r : Fin 50000) (j : Fin 64)
    (h0 : ∀ k : Fin 64, x0 (ix2 p k) = H (ix2 r k)) (h1 : ∀ k : Fin 64, x1 (ix2 p k) = M (ix2 r k))
    (h2 : ∀ k : Fin 64, x2 (ix2 k j) = Ws (ix2 k j)) (h3 : ∀ k : Fin 64, x3 (ix2 k j) = Wn (ix2 k j))
    (h4 : x4 (ix2 (0 : Fin 1) j) = brow (ix2 (0 : Fin 1) j)) :
    k0_pay1 x0 x1 x2 x3 x4 (ix2 p j) = relu (affineRow H M Ws Wn brow) (ix2 r j) := by
  rw [relu_apply, affineRow_apply]
  unfold k0_pay1
  simp only [shapeCast_self]
  show max (addf (addf _ _) _ (ix2 p j)) (Ideal.ofBits .f32 0x00000000#32) = _
  rw [body_sum_apply]
  simp only [h0, h1, h2, h3, h4]

/-- What the second launch's body stores at (p, j) is the layer's entry (r, j), under the same row hypotheses. -/
theorem pay1_apply (H M : Feat Ideal) (Ws Wn : Weight Ideal) (brow : BiasRow Ideal)
    (x0 x1 : Vec Ideal S5000x64 .f32) (x2 x3 : Vec Ideal S64x64 .f32) (x4 : Vec Ideal S1x64 .f32)
    (p : Fin 5000) (r : Fin 50000) (j : Fin 64)
    (h0 : ∀ k : Fin 64, x0 (ix2 p k) = H (ix2 r k)) (h1 : ∀ k : Fin 64, x1 (ix2 p k) = M (ix2 r k))
    (h2 : ∀ k : Fin 64, x2 (ix2 k j) = Ws (ix2 k j)) (h3 : ∀ k : Fin 64, x3 (ix2 k j) = Wn (ix2 k j))
    (h4 : x4 (ix2 (0 : Fin 1) j) = brow (ix2 (0 : Fin 1) j)) :
    k1_pay1 x0 x1 x2 x3 x4 (ix2 p j) = affineRow H M Ws Wn brow (ix2 r j) := by
  rw [affineRow_apply]
  unfold k1_pay1
  simp only [shapeCast_self]
  show addf (addf _ _) _ (ix2 p j) = _
  rw [body_sum_apply]
  simp only [h0, h1, h2, h3, h4]

end Cert.KernelIdeal.Gen

end
-- ==== Proof.Launch0.lean ====
/-
  The first launch's output array, from the contents the launch is entered with.

  The launch runs over 10 points; point t reads rows 5000·t … 5000·t + 4999 of the features and of the neighbour
  mean, the two whole weight matrices and the whole bias row, and writes rows 5000·t … 5000·t + 4999 of the output.
  The stored block's entry (p, j) is max(·, 0) of the affine layer's entry (5000·t + p, j) — it reads only row
  5000·t + p of the two row-blocked operands — so each written block is that block of ONE array, max(·, 0) of the affine
  layer of the whole operands; the ten blocks cover the 50000 rows (row r is in block r / 5000), so the output array
  ends holding it.  The contents at entry are a parameter here.
-/
import proofs.«166470_j54640573940274_1_alg».proof.Proof.BlockMath
import proofs.«166470_j54640573940274_1_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The block index maps over the grid: the row-blocked windows (features, mean, output) are at block (t, 0), the
    weights and the bias row at block (0, 0). -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array the first launch leaves in its output: max(·, 0) of the affine layer of the five operands as entered. -/
abbrev layerOut0 (c : Dev nD) : Feat Ideal :=
  relu (affineRow (V c main_arg0) (V c main_v18) (V c main_arg3) (V c main_arg4) (V c main_v19))

/-- What point t writes back is block t of that array. -/
theorem flushed0_eq (c : Dev nD) (t : Fin cfg0.N) :
    (dat0 V c).flushed 5 t = ((cfg0.win 5).blk t).view.read (Elt Ideal) (layerOut0 V c) := by
  show (cfg0.win 5).cut (grid0.coords t) ((dat0 V c).after 5 t) = _
  rw [after0_5]
  unfold out0_5
  rw [View.canon_unit_zero zero_offsets0]
  simp only [View.ld_unit_zero (S := S5000x64) zero_offsets0, View.ld_unit_zero (S := S64x64) zero_offsets0,
    View.ld_unit_zero (S := S1x64) zero_offsets0]
  obtain ⟨a0, a1, b0, b1, c0, c1, d0, d1, e0, e1, f0, f1⟩ := block_index0 t
  have ht : t.val < 10 := Nat.lt_of_lt_of_le t.isLt (Nat.le_of_eq N_0)
  funext y
  obtain ⟨p, j, rfl⟩ : ∃ (p : Fin 5000) (j : Fin 64), y = ix2 p j := ⟨y 0, y 1, eq_ix2 y⟩
  have hr : 5000 * t.val + p.val < 50000 := by have := p.isLt; omega
  have e5 : ((cfg0.win 5).blk t).view.emb (ix2 p j) = ix2 (⟨5000 * t.val + p.val, hr⟩ : Fin 50000) j := by
    funext a; apply Fin.ext
    match a with
    | ⟨0, _⟩ => show win0_5.index t (0 : Fin 2) * 5000 + 1 * p.val = 5000 * t.val + p.val; omega
    | ⟨1, _⟩ => show win0_5.index t (1 : Fin 2) * 64 + 1 * j.val = j.val; omega
  show k0_pay1 (iblk0 V c 0 t) (iblk0 V c 1 t) (iblk0 V c 2 t) (iblk0 V c 3 t) (iblk0 V c 4 t) (ix2 p j)
    = layerOut0 V c (((cfg0.win 5).blk t).view.emb (ix2 p j))
  rw [e5]
  refine pay0_apply (V c main_arg0) (V c main_v18) (V c main_arg3) (V c main_arg4) (V c main_v19)
    (iblk0 V c 0 t) (iblk0 V c 1 t) (iblk0 V c 2 t) (iblk0 V c 3 t) (iblk0 V c 4 t) p ⟨5000 * t.val + p.val, hr⟩ j ?_ ?_ ?_ ?_ ?_
  · intro k
    show V c main_arg0 (((cfg0.win 0).blk t).view.emb (ix2 p k)) = V c main_arg0 (ix2 (⟨5000 * t.val + p.val, hr⟩ : Fin 50000) k)
    refine congrArg (V c main_arg0) (funext fun a => Fin.ext ?_)
    match a with
    | ⟨0, _⟩ => show win0_0.index t (0 : Fin 2) * 5000 + 1 * p.val = 5000 * t.val + p.val; omega
    | ⟨1, _⟩ => show win0_0.index t (1 : Fin 2) * 64 + 1 * k.val = k.val; omega
  · intro k
    show V c main_v18 (((cfg0.win 1).blk t).view.emb (ix2 p k)) = V c main_v18 (ix2 (⟨5000 * t.val + p.val, hr⟩ : Fin 50000) k)
    refine congrArg (V c main_v18) (funext fun a => Fin.ext ?_)
    match a with
    | ⟨0, _⟩ => show win0_1.index t (0 : Fin 2) * 5000 + 1 * p.val = 5000 * t.val + p.val; omega
    | ⟨1, _⟩ => show win0_1.index t (1 : Fin 2) * 64 + 1 * k.val = k.val; omega
  · intro k
    show V c main_arg3 (((cfg0.win 2).blk t).view.emb (ix2 k j)) = V c main_arg3 (ix2 k j)
    refine congrArg (V c main_arg3) (funext fun a => Fin.ext ?_)
    match a with
    | ⟨0, _⟩ => show win0_2.index t (0 : Fin 2) * 64 + 1 * k.val = k.val; omega
    | ⟨1, _⟩ => show win0_2.index t (1 : Fin 2) * 64 + 1 * j.val = j.val; omega
  · intro k
    show V c main_arg4 (((cfg0.win 3).blk t).view.emb (ix2 k j)) = V c main_arg4 (ix2 k j)
    refine congrArg (V c main_arg4) (funext fun a => Fin.ext ?_)
    match a with
    | ⟨0, _⟩ => show win0_3.index t (0 : Fin 2) * 64 + 1 * k.val = k.val; omega
    | ⟨1, _⟩ => show win0_3.index t (1 : Fin 2) * 64 + 1 * j.val = j.val; omega
  · show V c main_v19 (((cfg0.win 4).blk t).view.emb (ix2 (0 : Fin 1) j)) = V c main_v19 (ix2 (0 : Fin 1) j)
    refine congrArg (V c main_v19) (funext fun a => Fin.ext ?_)
    match a with
    | ⟨0, _⟩ => show win0_4.index t (0 : Fin 2) * 1 + 1 * (0 : Nat) = 0; omega
    | ⟨1, _⟩ => show win0_4.index t (1 : Fin 2) * 64 + 1 * j.val = j.val; omega

/-- An index is in point t's output block iff each coordinate is in the block's range on its axis. -/
theorem mem_block0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v20).slice (win0_5.rect t)).set ↔ _
  rw [View.set_slice_whole, Rect.mem_set_unit]
  exact Iff.rfl

/-- Row r of the output is written by point r / 5000. -/
theorem cover0 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hq : (i 0).val / 5000 < cfg0.N := Nat.lt_of_lt_of_le (show (i 0).val / 5000 < 10 by omega) (Nat.le_of_eq N_0.symm)
  refine ⟨⟨(i 0).val / 5000, hq⟩, flush0_5 _, ?_⟩
  rw [mem_block0]
  obtain ⟨-, -, -, -, -, -, -, -, -, -, f0, f1⟩ := block_index0 ⟨(i 0).val / 5000, hq⟩
  intro a
  match a with
  | ⟨0, _⟩ =>
    show win0_5.index ⟨(i 0).val / 5000, hq⟩ (0 : Fin 2) * 5000 ≤ (i 0).val ∧ (i 0).val < win0_5.index ⟨(i 0).val / 5000, hq⟩ (0 : Fin 2) * 5000 + 5000
    rw [f0]; show (i 0).val / 5000 * 5000 ≤ (i 0).val ∧ (i 0).val < (i 0).val / 5000 * 5000 + 5000; omega
  | ⟨1, _⟩ =>
    show win0_5.index ⟨(i 0).val / 5000, hq⟩ (1 : Fin 2) * 64 ≤ (i 1).val ∧ (i 1).val < win0_5.index ⟨(i 0).val / 5000, hq⟩ (1 : Fin 2) * 64 + 64
    rw [f1]; omega

/-- The output array after the launch. -/
theorem arr0_eq (c : Dev nD) : (dat0 V c).arrAt 5 cfg0.N = layerOut0 V c :=
  (dat0 V c).arrAt_eq_of_cover 5 (layerOut0 V c) (fun t _ => flushed0_eq V c t) cover0

end Cert.KernelIdeal.Gen

end
-- ==== Proof.Launch1.lean ====
/-
  The second launch's output array, from the contents the launch is entered with.

  As for the first launch: 10 points, point t reading rows 5000·t … 5000·t + 4999 of the features (here the first launch's
  output) and of their neighbour mean, the two whole weight matrices and the bias row, and writing the same rows of the
  output.  The body has no max(·, 0): the stored block's entry (p, j) is the affine layer's entry (5000·t + p, j), the
  ten blocks cover the 50000 rows, and the output array ends holding the affine layer of the whole operands.
-/
import proofs.«166470_j54640573940274_1_alg».proof.Proof.BlockMath
import proofs.«166470_j54640573940274_1_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The block index maps over the grid: the row-blocked windows (features, mean, output) are at block (t, 0), the
    weights and the bias row at block (0, 0). -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array the second launch leaves in its output: the affine layer of the five operands as entered. -/
abbrev layerOut1 (c : Dev nD) : Feat Ideal :=
  affineRow (V c main_v20) (V c main_v39) (V c main_arg6) (V c main_arg7) (V c main_v40)

/-- What point t writes back is block t of that array. -/
theorem flushed1_eq (c : Dev nD) (t : Fin cfg1.N) :
    (dat1 V c).flushed 5 t = ((cfg1.win 5).blk t).view.read (Elt Ideal) (layerOut1 V c) := by
  show (cfg1.win 5).cut (grid1.coords t) ((dat1 V c).after 5 t) = _
  rw [after1_5]
  unfold out1_5
  rw [View.canon_unit_zero zero_offsets1]
  simp only [View.ld_unit_zero (S := S5000x64) zero_offsets1, View.ld_unit_zero (S := S64x64) zero_offsets1,
    View.ld_unit_zero (S := S1x64) zero_offsets1]
  obtain ⟨a0, a1, b0, b1, c0, c1, d0, d1, e0, e1, f0, f1⟩ := block_index1 t
  have ht : t.val < 10 := Nat.lt_of_lt_of_le t.isLt (Nat.le_of_eq N_1)
  funext y
  obtain ⟨p, j, rfl⟩ : ∃ (p : Fin 5000) (j : Fin 64), y = ix2 p j := ⟨y 0, y 1, eq_ix2 y⟩
  have hr : 5000 * t.val + p.val < 50000 := by have := p.isLt; omega
  have e5 : ((cfg1.win 5).blk t).view.emb (ix2 p j) = ix2 (⟨5000 * t.val + p.val, hr⟩ : Fin 50000) j := by
    funext a; apply Fin.ext
    match a with
    | ⟨0, _⟩ => show win1_5.index t (0 : Fin 2) * 5000 + 1 * p.val = 5000 * t.val + p.val; omega
    | ⟨1, _⟩ => show win1_5.index t (1 : Fin 2) * 64 + 1 * j.val = j.val; omega
  show k1_pay1 (iblk1 V c 0 t) (iblk1 V c 1 t) (iblk1 V c 2 t) (iblk1 V c 3 t) (iblk1 V c 4 t) (ix2 p j)
    = layerOut1 V c (((cfg1.win 5).blk t).view.emb (ix2 p j))
  rw [e5]
  refine pay1_apply (V c main_v20) (V c main_v39) (V c main_arg6) (V c main_arg7) (V c main_v40)
    (iblk1 V c 0 t) (iblk1 V c 1 t) (iblk1 V c 2 t) (iblk1 V c 3 t) (iblk1 V c 4 t) p ⟨5000 * t.val + p.val, hr⟩ j ?_ ?_ ?_ ?_ ?_
  · intro k
    show V c main_v20 (((cfg1.win 0).blk t).view.emb (ix2 p k)) = V c main_v20 (ix2 (⟨5000 * t.val + p.val, hr⟩ : Fin 50000) k)
    refine congrArg (V c main_v20) (funext fun a => Fin.ext ?_)
    match a with
    | ⟨0, _⟩ => show win1_0.index t (0 : Fin 2) * 5000 + 1 * p.val = 5000 * t.val + p.val; omega
    | ⟨1, _⟩ => show win1_0.index t (1 : Fin 2) * 64 + 1 * k.val = k.val; omega
  · intro k
    show V c main_v39 (((cfg1.win 1).blk t).view.emb (ix2 p k)) = V c main_v39 (ix2 (⟨5000 * t.val + p.val, hr⟩ : Fin 50000) k)
    refine congrArg (V c main_v39) (funext fun a => Fin.ext ?_)
    match a with
    | ⟨0, _⟩ => show win1_1.index t (0 : Fin 2) * 5000 + 1 * p.val = 5000 * t.val + p.val; omega
    | ⟨1, _⟩ => show win1_1.index t (1 : Fin 2) * 64 + 1 * k.val = k.val; omega
  · intro k
    show V c main_arg6 (((cfg1.win 2).blk t).view.emb (ix2 k j)) = V c main_arg6 (ix2 k j)
    refine congrArg (V c main_arg6) (funext fun a => Fin.ext ?_)
    match a with
    | ⟨0, _⟩ => show win1_2.index t (0 : Fin 2) * 64 + 1 * k.val = k.val; omega
    | ⟨1, _⟩ => show win1_2.index t (1 : Fin 2) * 64 + 1 * j.val = j.val; omega
  · intro k
    show V c main_arg7 (((cfg1.win 3).blk t).view.emb (ix2 k j)) = V c main_arg7 (ix2 k j)
    refine congrArg (V c main_arg7) (funext fun a => Fin.ext ?_)
    match a with
    | ⟨0, _⟩ => show win1_3.index t (0 : Fin 2) * 64 + 1 * k.val = k.val; omega
    | ⟨1, _⟩ => show win1_3.index t (1 : Fin 2) * 64 + 1 * j.val = j.val; omega
  · show V c main_v40 (((cfg1.win 4).blk t).view.emb (ix2 (0 : Fin 1) j)) = V c main_v40 (ix2 (0 : Fin 1) j)
    refine congrArg (V c main_v40) (funext fun a => Fin.ext ?_)
    match a with
    | ⟨0, _⟩ => show win1_4.index t (0 : Fin 2) * 1 + 1 * (0 : Nat) = 0; omega
    | ⟨1, _⟩ => show win1_4.index t (1 : Fin 2) * 64 + 1 * j.val = j.val; omega

/-- An index is in point t's output block iff each coordinate is in the block's range on its axis. -/
theorem mem_block1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- Row r of the output is written by point r / 5000. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hq : (i 0).val / 5000 < cfg1.N := Nat.lt_of_lt_of_le (show (i 0).val / 5000 < 10 by omega) (Nat.le_of_eq N_1.symm)
  refine ⟨⟨(i 0).val / 5000, hq⟩, flush1_5 _, ?_⟩
  rw [mem_block1]
  obtain ⟨-, -, -, -, -, -, -, -, -, -, f0, f1⟩ := block_index1 ⟨(i 0).val / 5000, hq⟩
  intro a
  match a with
  | ⟨0, _⟩ =>
    show win1_5.index ⟨(i 0).val / 5000, hq⟩ (0 : Fin 2) * 5000 ≤ (i 0).val ∧ (i 0).val < win1_5.index ⟨(i 0).val / 5000, hq⟩ (0 : Fin 2) * 5000 + 5000
    rw [f0]; show (i 0).val / 5000 * 5000 ≤ (i 0).val ∧ (i 0).val < (i 0).val / 5000 * 5000 + 5000; omega
  | ⟨1, _⟩ =>
    show win1_5.index ⟨(i 0).val / 5000, hq⟩ (1 : Fin 2) * 64 ≤ (i 1).val ∧ (i 1).val < win1_5.index ⟨(i 0).val / 5000, hq⟩ (1 : Fin 2) * 64 + 64
    rw [f1]; omega

/-- The output array after the launch. -/
theorem arr1_eq (c : Dev nD) : (dat1 V c).arrAt 5 cfg1.N = layerOut1 V c :=
  (dat1 V c).arrAt_eq_of_cover 5 (layerOut1 V c) (fun t _ => flushed1_eq V c t) cover1

end Cert.KernelIdeal.Gen

end
-- ==== Proof.Entry.lean ====
/-
  What the two launches find in their operand buffers, in terms of the arrays the program was launched with.

  Before the first launch the host computes the neighbour mean of the input features (gather by src, add into rows by
  dst, divide by max(degree, 1)) and lays the first bias out as one row; the features and the first two weight matrices
  are the arguments themselves.  Before the second launch it does the same with the first launch's output in place of the
  input features and with the second bias; the edge lists, the last two weight matrices and the second bias are still
  the arguments, because the first launch writes only its own output array.
-/
import proofs.«166470_j54640573940274_1_alg».proof.Proof.Spec
import proofs.«166470_j54640573940274_1_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo Cert.Sage

variable (m : (ℓ : Loc nD τ sig) → Buf (Elt Ideal) ℓ) (ρ : Dev nD → PrngReg)

/-! ## Entering the first launch -/

theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg3 (c : Dev nD) : V1 m ρ c main_arg3 = m ((c : Thread nD τ).loc main_arg3) := by
  show StableHlo.after hostOps0 (W0 m ρ c) (Proc.devRef .tc main_arg3) = _
  after_results_simp <;> rfl
theorem V1_arg4 (c : Dev nD) : V1 m ρ c main_arg4 = m ((c : Thread nD τ).loc main_arg4) := by
  show StableHlo.after hostOps0 (W0 m ρ c) (Proc.devRef .tc main_arg4) = _
  after_results_simp <;> rfl

set_option maxHeartbeats 8000000 in
/-- The first launch's second operand is the neighbour mean of the input features. -/
theorem V1_mean (c : Dev nD) :
    V1 m ρ c main_v18 = nbrMean (F := Ideal) (m ((c : Thread nD τ).loc main_arg0)) (m ((c : Thread nD τ).loc main_arg1)) (m ((c : Thread nD τ).loc main_arg2)) := by
  show StableHlo.after hostOps0 (W0 m ρ c) (Proc.devRef .tc main_v18) = _
  after_results_simp <;> rfl

/-- The first launch's bias operand is the first bias cast to one row. -/
theorem V1_bias (c : Dev nD) :
    V1 m ρ c main_v19 = shapeCast S1x64 (m ((c : Thread nD τ).loc main_arg5)) shapeCasts_S64_S1x64 := by
  show StableHlo.after hostOps0 (W0 m ρ c) (Proc.devRef .tc main_v19) = _
  after_results_simp <;> rfl

/-! ## Between the launches: the first launch leaves the arguments it does not read as they were -/

theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results_simp <;> rfl
theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results_simp <;> rfl
theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp <;> rfl
theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp <;> rfl
theorem W2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp <;> rfl

/-! ## Entering the second launch -/

theorem V3_hidden (c : Dev nD) : V3 m ρ c main_v20 = W2 m ρ c (Proc.devRef .tc main_v20) := by
  show StableHlo.after hostOps1 (W2 m ρ c) (Proc.devRef .tc main_v20) = _
  after_results_simp <;> rfl
theorem V3_arg6 (c : Dev nD) : V3 m ρ c main_arg6 = m ((c : Thread nD τ).loc main_arg6) := by
  refine Eq.trans ?_ (W2_arg6 m ρ c)
  show StableHlo.after hostOps1 (W2 m ρ c) (Proc.devRef .tc main_arg6) = _
  after_results_simp <;> rfl
theorem V3_arg7 (c : Dev nD) : V3 m ρ c main_arg7 = m ((c : Thread nD τ).loc main_arg7) := by
  refine Eq.trans ?_ (W2_arg7 m ρ c)
  show StableHlo.after hostOps1 (W2 m ρ c) (Proc.devRef .tc main_arg7) = _
  after_results_simp <;> rfl

set_option maxHeartbeats 8000000 in
/-- The second launch's second operand is the neighbour mean of the first launch's output. -/
theorem V3_mean (c : Dev nD) :
    V3 m ρ c main_v39 = nbrMean (F := Ideal) (W2 m ρ c (Proc.devRef .tc main_v20)) (m ((c : Thread nD τ).loc main_arg1)) (m ((c : Thread nD τ).loc main_arg2)) := by
  rw [← W2_arg1 m ρ c, ← W2_arg2 m ρ c]
  show StableHlo.after hostOps1 (W2 m ρ c) (Proc.devRef .tc main_v39) = _
  after_results_simp <;> rfl

/-- The second launch's bias operand is the second bias cast to one row. -/
theorem V3_bias (c : Dev nD) :
    V3 m ρ c main_v40 = shapeCast S1x64 (m ((c : Thread nD τ).loc main_arg8)) shapeCasts_S64_S1x64 := by
  rw [← W2_arg8 m ρ c]
  show StableHlo.after hostOps1 (W2 m ρ c) (Proc.devRef .tc main_v40) = _
  after_results_simp <;> rfl

end Cert.KernelIdeal.Gen

end
-- ==== Proof.ValueRun.lean ====
/-
  The idealized kernel program's run with its RESULT named.  The program is four segments — the host operations before
  the first launch, the first launch, the host operations before the second, the second launch — and the run threads the
  device's buffer contents through them; after the last segment every buffer that outlives the launches holds the last
  contents `W4`.  The frame statement reads only the nine argument buffers off that final state; here the result buffer
  is read off it as well.
-/
import proofs.«166470_j54640573940274_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last segment's contents of it,
    and the nine arguments end as launched. -/
theorem run_result : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Gen

end
-- ==== Proof.KernelValue.lean ====
/-
  The idealized kernel program's result is the two-layer network of its arguments.

  The result buffer ends at what the second launch leaves in its output array: the affine layer of the operands it is
  entered with.  Those are the first launch's output, its neighbour mean, the last two weight matrices and the second
  bias as one row; and the first launch's output is max(·, 0) of the affine layer of the input features, their neighbour
  mean, the first two weight matrices and the first bias as one row.  A vector of 64 entries cast to one row is the
  vector broadcast along the row's second axis, which is how the network's definition lays the bias out.
-/
import proofs.«166470_j54640573940274_1_alg».proof.Proof.Launch0
import proofs.«166470_j54640573940274_1_alg».proof.Proof.Launch1
import proofs.«166470_j54640573940274_1_alg».proof.Proof.Entry
import proofs.«166470_j54640573940274_1_alg».proof.Proof.ValueRun

set_option maxRecDepth 16384

noncomputable section

namespace Cert.KernelIdeal.Gen

open Idealize.ShloMosaic Idealize.ShloMosaic.TcCoe Idealize.ShloMosaic.ValueIdx Idealize.SL.Sem Cert.Sage

/-- A vector of 64 entries cast to one row of 64 is the vector broadcast to [1, 64] along axis 1. -/
theorem biasRow_eq (b : Bias Ideal) :
    (shapeCast S1x64 b shapeCasts_S64_S1x64 : BiasRow Ideal)
      = broadcastInDim Cert.ReferenceIdeal.S1x64 ![1] Cert.ReferenceIdeal.Gen.bcast_S64_S1x64_1 b := by
  funext i
  obtain ⟨u, j, rfl⟩ : ∃ (u : Fin 1) (j : Fin 64), i = ix2 u j := ⟨i 0, i 1, eq_ix2 i⟩
  refine (shapeCast_a_1a_apply b shapeCasts_S64_S1x64 u j).trans
    (broadcastInDim_apply ![1] Cert.ReferenceIdeal.Gen.bcast_S64_S1x64_1 b (ix2 u j) (ix1 j) fun a => ?_).symm
  match a with
  | ⟨0, _⟩ => show j.val = if (64 : Nat) = 1 then 0 else j.val; rw [if_neg (by decide)]

variable (m : (ℓ : Loc nD τ sig) → Buf (Elt Ideal) ℓ) (ρ : Dev nD → PrngReg)

/-- Between the launches the first launch's output array holds the network's first layer. -/
theorem hidden_eq (c : Dev nD) :
    W2 m ρ c (Proc.devRef .tc main_v20)
      = hidden (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W2_arr m ρ c 5).trans ((arr0_eq (V1 m ρ) c).trans ?_)
  show relu (affineRow (V1 m ρ c main_arg0) (V1 m ρ c main_v18) (V1 m ρ c main_arg3) (V1 m ρ c main_arg4) (V1 m ρ c main_v19)) = _
  rw [V1_arg0, V1_mean, V1_arg3, V1_arg4, V1_bias, biasRow_eq]
  rfl

/-- After the last segment the result buffer holds the network of the nine arguments. -/
theorem result_eq (c : Dev nD) :
    W4 m ρ c (Proc.devRef .tc main_v41)
      = net (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W4_arr m ρ c 5).trans ((arr1_eq (V3 m ρ) c).trans ?_)
  show affineRow (V3 m ρ c main_v20) (V3 m ρ c main_v39) (V3 m ρ c main_arg6) (V3 m ρ c main_arg7) (V3 m ρ c main_v40) = _
  rw [V3_hidden, V3_mean, V3_arg6, V3_arg7, V3_bias, biasRow_eq, hidden_eq]
  rfl

/-- The run, read: every weakly fair execution terminates without a fault, the result buffer at the network of the
    arguments and the arguments as launched. -/
theorem run_net : θ_run defs (onTc (τ := τ) (main (F := Ideal))) ⟨m, fun _ => 0, ρ⟩ (fun r => ∀ c : Dev nD,
      r.2.mem ((c.tc : Thread nD τ).loc main_v41)
        = net (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_result m ρ)

end Cert.KernelIdeal.Gen

end
-- ==== Proof.RefValue.lean ====
/-
  The reference program's result is the two-layer network of the argument arrays: its operations, composed, are the
  network's definition read off line by line.
-/
import proofs.«166470_j54640573940274_1_alg».proof.Proof.Spec
import proofs.«166470_j54640573940274_1_alg».proof.Proof.Gen.ReferenceIdeal.Run

noncomputable section

namespace Cert.Sage

open Idealize.ShloMosaic Idealize.ShloMosaic.TcCoe Idealize.SL.Sem Cert.ReferenceIdeal

/-- The reference's composed result term is `net` of its nine arguments. -/
theorem ref_result (m : (ℓ : Loc nD τ sig) → Buf (Elt Ideal) ℓ) (c : Dev nD) :
    Cert.ReferenceIdeal.Value.res_main_v50 (F := Ideal) m c
      = net (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v50 net hidden affine affineRow relu nbrMean
  rfl

end Cert.Sage

end
-- ==== Proof.lean ====
/-
  The certificate of a two-layer graph network: a kernel program that computes each layer's dense part
  (h · W_self + mean · W_neigh + b, and max(·, 0) after the first layer) in a launch over ten blocks of 5000 rows, against
  a reference that computes it with whole-array matrix products; the neighbour mean (gather by src, add into rows by dst,
  divide by max(degree, 1)) is computed on the host by the same operations in both.

  On the extended reals the two results are one array: a matrix product's row r needs only row r of its left operand, so
  the launch's row blocks are the blocks of the whole product; accumulating into zero adds nothing; a change of float
  format is the identity; and the shared host operations are applied to equal arrays.  No law used needs finite entries,
  so the precondition is not opened.  The three frames are the two programs' runs with the results dropped; the kernel's
  idealization rewrote nothing.
-/
import proofs.«166470_j54640573940274_1_alg».proof.Defs
import proofs.«166470_j54640573940274_1_alg».proof.Proof.Gen.Kernel
import proofs.«166470_j54640573940274_1_alg».proof.Proof.Gen.Kernel.Frame
import proofs.«166470_j54640573940274_1_alg».proof.Proof.Gen.KernelIdeal
import proofs.«166470_j54640573940274_1_alg».proof.Proof.Gen.KernelIdeal.Frame
import proofs.«166470_j54640573940274_1_alg».proof.Proof.Gen.ReferenceIdeal
import proofs.«166470_j54640573940274_1_alg».proof.Proof.Gen.ReferenceIdeal.Run
import proofs.«166470_j54640573940274_1_alg».proof.Proof.Gen.Pre_finite_inputs
import proofs.«166470_j54640573940274_1_alg».proof.Proof.KernelValue
import proofs.«166470_j54640573940274_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the (agreeing) arguments in their result buffers. -/
theorem algebraic : Cert.algebraic_KernelIdeal_ReferenceIdeal := by
  intro m ρ m' ρ' _ hagree
  refine ⟨_, Cert.KernelIdeal.Gen.run_net m ρ, ?_⟩
  refine (θ_run Cert.ReferenceIdeal.defs _ _).mono (fun _ h c => ⟨(h c).1.trans ?_, (h c).2⟩)
    (Cert.ReferenceIdeal.Value.run (F := Ideal) m' ρ')
  rw [Cert.Sage.ref_result m' c]
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
